-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S200000x256 : Shape := ⟨2, ![200000, 256]⟩
abbrev S256x64 : Shape := ⟨2, ![256, 64]⟩
abbrev S64 : Shape := ⟨1, ![64]⟩
abbrev S1000000 : Shape := ⟨1, ![1000000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : FVec F S200000x256 .f32) (main_arg2 : FVec F S256x64 .f32) (main_arg3 : FVec F S64 .f32) (main_arg4 : FVec F S256x64 .f32) (main_arg5 : FVec F S64 .f32) (main_arg6 : IVec S1000000 32) (main_arg7 : IVec S1000000 32) (main_arg8 : IVec S1000000 32) (main_arg9 : IVec S1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x256 : Shape := ⟨2, ![100000, 256]⟩
abbrev S200000x256 : Shape := ⟨2, ![200000, 256]⟩
abbrev S256x64 : Shape := ⟨2, ![256, 64]⟩
abbrev S64 : Shape := ⟨1, ![64]⟩
abbrev S1000000 : Shape := ⟨1, ![1000000]⟩
abbrev S100000x64 : Shape := ⟨2, ![100000, 64]⟩
abbrev S4000x256 : Shape := ⟨2, ![4000, 256]⟩
abbrev S4000x64 : Shape := ⟨2, ![4000, 64]⟩
abbrev S1x64 : Shape := ⟨2, ![1, 64]⟩
abbrev S200000x64 : Shape := ⟨2, ![200000, 64]⟩
abbrev S_ : Shape := ⟨0, ![]⟩
abbrev S1000000x1 : Shape := ⟨2, ![1000000, 1]⟩
abbrev S1000000x64 : Shape := ⟨2, ![1000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩

abbrev nBuf : Space → Nat
  | .hbm => 64
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S200000x256, .f32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S100000x64, .bf16⟩
  | .hbm, ⟨11, _⟩ => ⟨S200000x64, .bf16⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .bf16⟩
  | .hbm, ⟨21, _⟩ => ⟨S1000000x64, .f32⟩
  | .hbm, ⟨22, _⟩ => ⟨S_, .f32⟩
  | .hbm, ⟨23, _⟩ => ⟨S200000x64, .f32⟩
  | .hbm, ⟨24, _⟩ => ⟨S1000000x1, .i32⟩
  | .hbm, ⟨25, _⟩ => ⟨S200000x64, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S200000, .f32⟩
  | .hbm, ⟨30, _⟩ => ⟨S1000000x1, .i32⟩
  | .hbm, ⟨31, _⟩ => ⟨S200000, .f32⟩
  | .hbm, ⟨32, _⟩ => ⟨S_, .f32⟩
  | .hbm, ⟨33, _⟩ => ⟨S200000, .f32⟩
  | .hbm, ⟨34, _⟩ => ⟨S200000, .f32⟩
  | .hbm, ⟨35, _⟩ => ⟨S200000x1, .f32⟩
  | .hbm, ⟨36, _⟩ => ⟨S200000x64, .f32⟩
  | .hbm, ⟨37, _⟩ => ⟨S200000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .bf16⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S_, .f32⟩
  | .hbm, ⟨53, _⟩ => ⟨S1000000, .f32⟩
  | .hbm, ⟨54, _⟩ => ⟨S_, .f32⟩
  | .hbm, ⟨55, _⟩ => ⟨S100000, .f32⟩
  | .hbm, ⟨56, _⟩ => ⟨S1000000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S64, .f32⟩
  | .local _ .vmem, ⟨4, _⟩ => ⟨S4000x64, .bf16⟩
  | .local _ .vmem, ⟨5, _⟩ => ⟨S4000x64, .bf16⟩
  | .local _ .vmem, ⟨6, _⟩ => ⟨S4000x256, .f32⟩
  | .local _ .vmem, ⟨7, _⟩ => ⟨S4000x256, .f32⟩
  | .local _ .vmem, ⟨8, _⟩ => ⟨S256x64, .f32⟩
  | .local _ .vmem, ⟨9, _⟩ => ⟨S64, .f32⟩
  | .local _ .vmem, ⟨10, _⟩ => ⟨S4000x64, .bf16⟩
  | .local _ .vmem, ⟨11, _⟩ => ⟨S4000x64, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S4000x256_S256x64_S4000x64_1_0_0_1_n_n_wf : DotDims.WF S4000x256 S256x64 S4000x64 [1] [0] [0] [1] [] []
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S200000x64.size a
  hwx1_3 : ∀ i : grid1.Coords, EltTy.bits .bf16 = 32 ∨ (Rect.block (s := S200000x64) S4000x64.size (cc1_transform_3 i) (hinb1_3 i)).WholeWords (EltTy.packing .bf16)

variable [Facts₀]

def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S200000x256 : Shape := ⟨2, ![200000, 256]⟩
abbrev S256x64 : Shape := ⟨2, ![256, 64]⟩
abbrev S64 : Shape := ⟨1, ![64]⟩
abbrev S1000000 : Shape := ⟨1, ![1000000]⟩
abbrev S100000x64 : Shape := ⟨2, ![100000, 64]⟩
abbrev S1x64 : Shape := ⟨2, ![1, 64]⟩
abbrev S200000x64 : Shape := ⟨2, ![200000, 64]⟩
abbrev S_ : Shape := ⟨0, ![]⟩
abbrev S1000000x1 : Shape := ⟨2, ![1000000, 1]⟩
abbrev S1000000x64 : Shape := ⟨2, ![1000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S200000x256, .f32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S100000x64, .f32⟩
  | .hbm, ⟨11, _⟩ => ⟨S1x64, .f32⟩
  | .hbm, ⟨12, _⟩ => ⟨S100000x64, .f32⟩
  | .hbm, ⟨13, _⟩ => ⟨S100000x64, .f32⟩
  | .hbm, ⟨14, _⟩ => ⟨S200000x64, .f32⟩
  | .hbm, ⟨15, _⟩ => ⟨S1x64, .f32⟩
  | .hbm, ⟨16, _⟩ => ⟨S200000x64, .f32⟩
  | .hbm, ⟨17, _⟩ => ⟨S200000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .f32⟩
  | .hbm, ⟨28, _⟩ => ⟨S200000x64, .f32⟩
  | .hbm, ⟨29, _⟩ => ⟨S1000000x1, .i32⟩
  | .hbm, ⟨30, _⟩ => ⟨S200000x64, .f32⟩
  | .hbm, ⟨31, _⟩ => ⟨S_, .f32⟩
  | .hbm, ⟨32, _⟩ => ⟨S1000000, .f32⟩
  | .hbm, ⟨33, _⟩ => ⟨S_, .f32⟩
  | .hbm, ⟨34, _⟩ => ⟨S200000, .f32⟩
  | .hbm, ⟨35, _⟩ => ⟨S1000000x1, .i32⟩
  | .hbm, ⟨36, _⟩ => ⟨S200000, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S200000x1, .f32⟩
  | .hbm, ⟨41, _⟩ => ⟨S200000x64, .f32⟩
  | .hbm, ⟨42, _⟩ => ⟨S200000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S_, .f32⟩
  | .hbm, ⟨57, _⟩ => ⟨S1000000, .f32⟩
  | .hbm, ⟨58, _⟩ => ⟨S_, .f32⟩
  | .hbm, ⟨59, _⟩ => ⟨S100000, .f32⟩
  | .hbm, ⟨60, _⟩ => ⟨S1000000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S200000x64_0_1 : S1x64.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x64_S100000x64_1_0_0_1_n_n_wf : DotDims.WF S100000x256 S256x64 S100000x64 [1] [0] [0] [1] [] []
  dot_S200000x256_S256x64_S200000x64_1_0_0_1_n_n_wf : DotDims.WF S200000x256 S256x64 S200000x64 [1] [0] [0] [1] [] []
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.KernelRun.lean ====
/-
  The idealized kernel's run with its two results named.

  @main is two kernel regions followed by one stretch of host operations. The run of the three segments ends with every
  unscoped buffer at the last boundary's contents: the fold `Gen.W3` of the host operations over the buffers as the
  second region leaves them. Reading the two result buffers (and the ten arguments) against the final state gives the
  run with each result at `Gen.W3` of its buffer and every argument as launched.
-/
import proofs.«174429_j35648228556927_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v41) = W3 m ρ c (Proc.devRef .tc main_v41)
      ∧ r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v41 (by decide)),
       h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Results

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Dense.lean ====
/-
  One linear projection, read entry by entry at the ideal values.

  `proj x w b` is the array `x · w + b` for a block of rows `x` ([R, 256]), a weight matrix `w` ([256, 64]) and a bias
  vector `b` ([64]): its entry (p, q) is the sum over k of `x (p, k) * w (k, q)`, plus `b q`. Entry (p, q) depends on row
  `p` of `x` only, so a block of rows of `proj` is `proj` of that block of rows.

  The kernel body's stored value — the matrix product of the block by the weights into a zero accumulator, plus the bias
  vector cast to one row and laid along every row, every change of float format being the identity on the extended
  reals — is `proj` of the block it loaded (`pay0_eq`, `pay1_eq`).
-/
import proofs.«174429_j35648228556927_1_alg».proof.Proof.LibDenseLayer
import proofs.«174429_j35648228556927_1_alg».proof.Proof.Gen.KernelIdeal.Skeleton

noncomputable section

open scoped BigOperators

namespace Cert.Bridge

open Idealize.ShloMosaic Idealize.ShloMosaic.ValueIdx Cert.Lib.DenseLayer

/-- The projection `x · w + b`, entry by entry. -/
def proj {R : Nat} (x : FVec Ideal ⟨2, ![R, 256]⟩ .f32) (w : FVec Ideal ⟨2, ![256, 64]⟩ .f32)
    (b : FVec Ideal ⟨1, ![64]⟩ .f32) : FVec Ideal ⟨2, ![R, 64]⟩ .f32 :=
  fun i => affine (fun k => x (ix2 (i 0) k)) w (fun j => b (ix1 j)) (i 1)

theorem proj_apply {R : Nat} (x : FVec Ideal ⟨2, ![R, 256]⟩ .f32) (w : FVec Ideal ⟨2, ![256, 64]⟩ .f32)
    (b : FVec Ideal ⟨1, ![64]⟩ .f32) (p : Fin R) (q : Fin 64) :
    proj x w b (ix2 p q) = affine (fun k => x (ix2 p k)) w (fun j => b (ix1 j)) q := rfl

section Payload

open Cert.KernelIdeal Cert.KernelIdeal.Gen

/-- The dimension numbers of the body's matrix product are the plain ones. -/
theorem dot_plain : dot_S4000x256_S256x64_S4000x64_1_0_0_1_n_n = DotDims.plain 4000 256 64 := rfl

/-- The first call's stored value is the projection of the block of rows it loaded. -/
theorem pay0_eq (v0 : Vec Ideal S4000x256 .f32) (v2 : Vec Ideal S256x64 .f32) (v5 : Vec Ideal S64 .f32) :
    k0_pay1 (F := Ideal) v0 v2 v5 = proj v0 v2 v5 := by
  funext j
  obtain ⟨p, q, rfl⟩ : ∃ (p : Fin 4000) (q : Fin 64), j = ix2 p q := ⟨j 0, j 1, eq_ix2 j⟩
  rw [proj_apply]
  unfold k0_pay1
  refine (layer_apply dot_S4000x256_S256x64_S4000x64_1_0_0_1_n_n dot_plain none v0 v2
    (shapeCast S1x64 v5 Facts₀.shapeCasts_S64_S1x64) Facts₀.broadcasts_S1x64_S4000x64 p q).trans ?_
  refine congrArg (fun f => affine (fun k => v0 (ix2 p k)) v2 f q) (funext fun j => ?_)
  exact shapeCast_a_1a_apply v5 Facts₀.shapeCasts_S64_S1x64 (0 : Fin 1) j

/-- The second call's stored value is the projection of the block of rows it loaded. -/
theorem pay1_eq (v0 : Vec Ideal S4000x256 .f32) (v2 : Vec Ideal S256x64 .f32) (v5 : Vec Ideal S64 .f32) :
    k1_pay1 (F := Ideal) v0 v2 v5 = proj v0 v2 v5 := pay0_eq v0 v2 v5

end Payload

end Cert.Bridge

end
-- ==== Proof.KernelBlocks.lean ====
/-
  From the blocks the two calls write back to the whole projected arrays.

  Each call walks the feature rows in blocks of 4000: at point `t` the body loads rows `4000 t … 4000 t + 3999` of the
  features, the whole weight matrix and the whole bias, and stores the projection of that block, which the pipeline
  writes back as rows `4000 t …` of the result. Since entry (p, q) of the projection reads row `p` of the features
  only, the block written back is that block of the projection of the whole arrays; the blocks cover every row, so the
  result array ends as the projection of the arrays.
-/
import proofs.«174429_j35648228556927_1_alg».proof.Proof.Gen.KernelIdeal.Frame
import proofs.«174429_j35648228556927_1_alg».proof.Proof.Dense
import Idealize.ShloMosaic.Lib.Pipeline.Value

set_option maxRecDepth 16384

noncomputable section

open scoped BigOperators

namespace Cert.KernelIdeal.Blocks

open Cert.KernelIdeal Cert.KernelIdeal.Gen Cert.Bridge Cert.Lib.DenseLayer
open Idealize.ShloMosaic Idealize.ShloMosaic.TcCoe Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- A block of the projection from the blocks of its operands: when the block's feature rows are rows of `X`, its
    weights `W`'s and its bias `B`'s at the matching places, the projection of the blocks at `j` is the projection of
    the whole arrays at the matching index `i`. -/
theorem proj_block {R : Nat} (X : FVec Ideal ⟨2, ![R, 256]⟩ .f32) (W : FVec Ideal ⟨2, ![256, 64]⟩ .f32)
    (B : FVec Ideal ⟨1, ![64]⟩ .f32) (x0 : Vec Ideal S4000x256 .f32) (x1 : Vec Ideal S256x64 .f32)
    (x2 : Vec Ideal S64 .f32) (i : (⟨2, ![R, 64]⟩ : Shape).Idx) (j : S4000x64.Idx)
    (h0 : ∀ k : Fin 256, x0 (ix2 (j 0) k) = X (ix2 (i 0) k))
    (h1 : ∀ k : Fin 256, x1 (ix2 k (j 1)) = W (ix2 k (i 1)))
    (h2 : x2 (ix1 (j 1)) = B (ix1 (i 1))) :
    proj x0 x1 x2 j = proj X W B i := by
  show (∑ k : Fin 256, x0 (ix2 (j 0) k) * x1 (ix2 k (j 1))) + x2 (ix1 (j 1))
    = (∑ k : Fin 256, X (ix2 (i 0) k) * W (ix2 k (i 1))) + B (ix1 (i 1))
  exact congrArg₂ (· + ·) (Finset.sum_congr rfl fun k _ => congrArg₂ (· * ·) (h0 k) (h1 k)) h2

variable (V : (c : Dev nD) → (b : Ref sig .tc) → Buf (Elt Ideal) ((c : Thread nD τ).loc b))

/-! ## Call 0: the rows of `main_arg0`, 25 blocks of 4000 -/

/-- The printed index maps over the grid: the row block of the features and of the result is the grid point, every
    other block index is zero. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) < 25 ∧ win0_3.index t (1 : Fin 2) = 0 :=
  (by decide +kernel : ∀ t : Fin grid0.N, _)

/-- Every row block is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

/-- What point `t` writes back is block `t` of the projection of the arrays as the call finds them: the block of
    feature rows it loaded is rows `4000 t …` of the features, and the weights and the bias are loaded whole. -/
theorem flushed0_eq (c : Dev nD) (t : Fin cfg0.N) :
    (dat0 (F := Ideal) V c).flushed 3 t
      = ((cfg0.win 3).blk t).view.read (Elt Ideal) (proj (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S4000x256) hz2, View.ld_unit_zero (S := S256x64) hz2, View.ld_unit_zero (S := S64) hz1]
  rw [pay0_eq]
  obtain ⟨e0, e1, e2, e3, e4, e5, e6⟩ := idx_facts0 t
  funext j
  show proj (iblk0 V c 0 t) (iblk0 V c 1 t) (iblk0 V c 2 t) j
    = proj (V c main_arg0) (V c main_arg2) (V c main_arg3) (((cfg0.win 3).blk t).view.emb j)
  refine proj_block (V c main_arg0) (V c main_arg2) (V c main_arg3) (iblk0 V c 0 t) (iblk0 V c 1 t) (iblk0 V c 2 t)
    (((cfg0.win 3).blk t).view.emb j) j (fun k => ?_) (fun k => ?_) ?_
  · show V c main_arg0 (((cfg0.win 0).blk t).view.emb (ix2 (j 0) k)) = _
    refine congrArg (V c main_arg0) (funext fun a => Fin.ext ?_)
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 256 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_3.index t (1 : Fin 2) * 64 + 1 * (j 1).val; omega
  · show V c main_arg3 (((cfg0.win 2).blk t).view.emb (ix1 (j 1))) = _
    refine congrArg (V c main_arg3) (funext fun a => Fin.ext ?_)
    match a with
    | ⟨0, _⟩ => show win0_2.index t (0 : Fin 1) * 64 + 1 * (j 1).val = win0_3.index t (1 : Fin 2) * 64 + 1 * (j 1).val; omega

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v0).slice (win0_3.rect t)).set ↔ _
  rw [View.set_slice_whole, Rect.mem_set_unit]
  exact Iff.rfl

/-- Every index of the result array is in the block of the point its row falls in. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The result array after the call is the projection of the arrays as the call finds them. -/
theorem final0 (c : Dev nD) :
    (dat0 (F := Ideal) V c).arrAt 3 cfg0.N = proj (V c main_arg0) (V c main_arg2) (V c main_arg3) :=
  (dat0 (F := Ideal) V c).arrAt_eq_of_cover 3 _ (fun t _ => flushed0_eq V c t) cover0

/-! ## Call 1: the rows of `main_arg1`, 50 blocks of 4000 -/

/-- The printed index maps over the grid: the row block of the features and of the result is the grid point, every
    other block index is zero. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) < 50 ∧ win1_3.index t (1 : Fin 2) = 0 :=
  (by decide +kernel : ∀ t : Fin grid1.N, _)

/-- Every row block is some point's. -/
theorem idx_onto1 : ∀ q0 : Fin 50, ∃ t : Fin cfg1.N, win1_3.index t = ![q0.val, 0] :=
  (by decide +kernel : ∀ q0 : Fin 50, ∃ t : Fin grid1.N, win1_3.index t = ![q0.val, 0])

/-- What point `t` writes back is block `t` of the projection of the arrays as the call finds them: the block of
    feature rows it loaded is rows `4000 t …` of the features, and the weights and the bias are loaded whole. -/
theorem flushed1_eq (c : Dev nD) (t : Fin cfg1.N) :
    (dat1 (F := Ideal) V c).flushed 3 t
      = ((cfg1.win 3).blk t).view.read (Elt Ideal) (proj (V c main_arg1) (V c main_arg4) (V c main_arg5)) := by
  show (cfg1.win 3).cut (grid1.coords t) ((dat1 V c).after 3 t) = _
  rw [after1_3]
  unfold out1_3
  rw [View.canon_unit_zero hz2]
  simp only [View.ld_unit_zero (S := S4000x256) hz2, View.ld_unit_zero (S := S256x64) hz2, View.ld_unit_zero (S := S64) hz1]
  rw [pay1_eq]
  obtain ⟨e0, e1, e2, e3, e4, e5, e6⟩ := idx_facts1 t
  funext j
  show proj (iblk1 V c 0 t) (iblk1 V c 1 t) (iblk1 V c 2 t) j
    = proj (V c main_arg1) (V c main_arg4) (V c main_arg5) (((cfg1.win 3).blk t).view.emb j)
  refine proj_block (V c main_arg1) (V c main_arg4) (V c main_arg5) (iblk1 V c 0 t) (iblk1 V c 1 t) (iblk1 V c 2 t)
    (((cfg1.win 3).blk t).view.emb j) j (fun k => ?_) (fun k => ?_) ?_
  · show V c main_arg1 (((cfg1.win 0).blk t).view.emb (ix2 (j 0) k)) = _
    refine congrArg (V c main_arg1) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 256 + 1 * k.val = k.val; omega
  · show V c main_arg4 (((cfg1.win 1).blk t).view.emb (ix2 k (j 1))) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 64 + 1 * (j 1).val = win1_3.index t (1 : Fin 2) * 64 + 1 * (j 1).val; omega
  · show V c main_arg5 (((cfg1.win 2).blk t).view.emb (ix1 (j 1))) = _
    refine congrArg (V c main_arg5) (funext fun a => Fin.ext ?_)
    match a with
    | ⟨0, _⟩ => show win1_2.index t (0 : Fin 1) * 64 + 1 * (j 1).val = win1_3.index t (1 : Fin 2) * 64 + 1 * (j 1).val; omega

/-- An index of the result array is in point `t`'s block iff each coordinate is in the block's range on its axis. -/
theorem mem_blk1 (t : Fin cfg1.N) (i : S200000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v1).slice (win1_3.rect t)).set ↔ _
  rw [View.set_slice_whole, Rect.mem_set_unit]
  exact Iff.rfl

/-- Every index of the result array is in the block of the point its row falls in. -/
theorem cover1 (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  obtain ⟨t, ht⟩ := idx_onto1 ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- The result array after the call is the projection of the arrays as the call finds them. -/
theorem final1 (c : Dev nD) :
    (dat1 (F := Ideal) V c).arrAt 3 cfg1.N = proj (V c main_arg1) (V c main_arg4) (V c main_arg5) :=
  (dat1 (F := Ideal) V c).arrAt_eq_of_cover 3 _ (fun t _ => flushed1_eq V c t) cover1

end Cert.KernelIdeal.Blocks

end
-- ==== Proof.Tail.lean ====
/-
  The mean aggregation over the edges, as one function of the projected features and the edge lists.

  For an edge list (`src`, `dst`) and projected source features `wh`: gather row `src e` of `wh` for every edge `e` (a
  negative index counted from the end), add the gathered rows into the rows `dst e` of a zero array, count the edges
  arriving at each row the same way, and divide each row's total by the larger of its count and one. Both programs end
  with exactly these host operations; they are kept together here and never opened: the two programs agree as soon as
  the projected features they aggregate agree.
-/
import proofs.«174429_j35648228556927_1_alg».proof.Proof.Gen.ReferenceIdeal
import Idealize.ShloMosaic.PureOps.Ideal

noncomputable section

namespace Cert.Bridge

open Idealize.ShloMosaic Cert.ReferenceIdeal Cert.ReferenceIdeal.Facts₀

/-- The mean over the incoming edges of the projected photo features, one row per user. -/
def aggUsers (wh : FVec Ideal S200000x64 .f32) (src dst : IVec S1000000 32) : FVec Ideal S100000x64 .f32 :=
  Host.divf (F := Ideal) (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst) (Host.gather gather_S200000x64_S1000000x1_S1000000x64_1_0_n_n_0_1_164 wh (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 200000#32))) src)))) (broadcastInDim S100000x64 ![0, 1] bcast_S100000x1_S100000x64_0_1 (broadcastInDim S100000x1 ![0] bcast_S100000_S100000x1_0 (maximumf (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32)))))

/-- The mean over the incoming edges of the projected user features, one row per photo. -/
def aggPhotos (wh : FVec Ideal S100000x64 .f32) (src dst : IVec S1000000 32) : FVec Ideal S200000x64 .f32 :=
  Host.divf (F := Ideal) (Host.scatterAdd (F := Ideal) scatter_S200000x64_S1000000x1_S1000000x64_1_0_0_1 (broadcastInDim S200000x64 ![] bcast_S_S200000x64 (constant (F := Ideal) S_ .f32 0x00000000#32)) (broadcastInDim S1000000x1 ![0] bcast_S1000000_S1000000x1_0 dst) (Host.gather gather_S100000x64_S1000000x1_S1000000x64_1_0_n_n_0_1_164 wh (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))) (broadcastInDim S200000x64 ![0, 1] bcast_S200000x1_S200000x64_0_1 (broadcastInDim S200000x1 ![0] bcast_S200000_S200000x1_0 (maximumf (F := Ideal) (Host.scatterAdd (F := Ideal) scatter_S200000_S1000000x1_S1000000_n_0_0_1 (broadcastInDim S200000 ![] bcast_S_S200000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S200000 ![] bcast_S_S200000 (constant (F := Ideal) S_ .f32 0x3F800000#32)))))

end Cert.Bridge

end
-- ==== Proof.KernelValue.lean ====
/-
  The idealized kernel's two results, as the mean aggregation of the projections of the launch arrays.

  After the two calls the projected feature arrays hold the projections of the launch arrays: each call's inputs are
  arguments of @main, which neither call nor any host operation writes, so each call finds them as launched. The host
  operations after the calls are the shared aggregation applied to those two arrays and the edge lists — the one
  extra operation, the widening of the gathered rows to the wider float format, is the identity on the extended reals.
-/
import proofs.«174429_j35648228556927_1_alg».proof.Proof.KernelBlocks
import proofs.«174429_j35648228556927_1_alg».proof.Proof.Tail
import Idealize.ShloMosaic.Lib.StableHlo.Run

set_option maxRecDepth 16384

noncomputable section

namespace Cert.KernelIdeal.Results

open Cert.KernelIdeal Cert.KernelIdeal.Gen Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The buffers as the second call leaves them -/

/-- The projected user features: the first call's result, which the second call does not touch. -/
theorem W2_v0 (c : Dev nD) : W2 m ρ c (Proc.devRef .tc main_v0)
    = proj (m ((c.tc : Thread nD τ).loc main_arg0)) (m ((c.tc : Thread nD τ).loc main_arg2)) (m ((c.tc : Thread nD τ).loc main_arg3)) :=
  (W2_of_ne m ρ c main_v0 (by decide)).trans ((W1_arr m ρ c 3).trans (Blocks.final0 (V0 m ρ) c))

/-- The second call finds its three inputs as launched. -/
theorem V1_arg1 (c : Dev nD) : V1 m ρ c main_arg1 = m ((c.tc : Thread nD τ).loc main_arg1) := W1_of_ne m ρ c main_arg1 (by decide)
theorem V1_arg4 (c : Dev nD) : V1 m ρ c main_arg4 = m ((c.tc : Thread nD τ).loc main_arg4) := W1_of_ne m ρ c main_arg4 (by decide)
theorem V1_arg5 (c : Dev nD) : V1 m ρ c main_arg5 = m ((c.tc : Thread nD τ).loc main_arg5) := W1_of_ne m ρ c main_arg5 (by decide)

/-- The projected photo features: the second call's result. -/
theorem W2_v1 (c : Dev nD) : W2 m ρ c (Proc.devRef .tc main_v1)
    = proj (m ((c.tc : Thread nD τ).loc main_arg1)) (m ((c.tc : Thread nD τ).loc main_arg4)) (m ((c.tc : Thread nD τ).loc main_arg5)) := by
  refine (W2_arr m ρ c 3).trans ((Blocks.final1 (V1 m ρ) c).trans ?_)
  rw [V1_arg1, V1_arg4, V1_arg5]

/-- The edge lists are as launched. -/
theorem W2_arg6 (c : Dev nD) : W2 m ρ c (Proc.devRef .tc main_arg6) = m ((c.tc : Thread nD τ).loc main_arg6) :=
  (W2_of_ne m ρ c main_arg6 (by decide)).trans (W1_of_ne m ρ c main_arg6 (by decide))
theorem W2_arg7 (c : Dev nD) : W2 m ρ c (Proc.devRef .tc main_arg7) = m ((c.tc : Thread nD τ).loc main_arg7) :=
  (W2_of_ne m ρ c main_arg7 (by decide)).trans (W1_of_ne m ρ c main_arg7 (by decide))
theorem W2_arg8 (c : Dev nD) : W2 m ρ c (Proc.devRef .tc main_arg8) = m ((c.tc : Thread nD τ).loc main_arg8) :=
  (W2_of_ne m ρ c main_arg8 (by decide)).trans (W1_of_ne m ρ c main_arg8 (by decide))
theorem W2_arg9 (c : Dev nD) : W2 m ρ c (Proc.devRef .tc main_arg9) = m ((c.tc : Thread nD τ).loc main_arg9) :=
  (W2_of_ne m ρ c main_arg9 (by decide)).trans (W1_of_ne m ρ c main_arg9 (by decide))

/-! ## The host operations after the calls -/

/-- The users' result buffer after the host operations: the aggregation of what the second call left. -/
theorem W3_v41_agg (c : Dev nD) : W3 m ρ c (Proc.devRef .tc main_v41)
    = aggUsers (W2 m ρ c (Proc.devRef .tc main_v1)) (W2 m ρ c (Proc.devRef .tc main_arg8)) (W2 m ρ c (Proc.devRef .tc main_arg9)) := by
  show StableHlo.after hostOps2 (W2 m ρ c) (Proc.devRef .tc main_v41) = _
  generalize W2 m ρ c = W
  after_results_simp
  rfl

/-- The photos' result buffer after the host operations: the aggregation of what the first call left. -/
theorem W3_v21_agg (c : Dev nD) : W3 m ρ c (Proc.devRef .tc main_v21)
    = aggPhotos (W2 m ρ c (Proc.devRef .tc main_v0)) (W2 m ρ c (Proc.devRef .tc main_arg6)) (W2 m ρ c (Proc.devRef .tc main_arg7)) := by
  show StableHlo.after hostOps2 (W2 m ρ c) (Proc.devRef .tc main_v21) = _
  generalize W2 m ρ c = W
  after_results_simp
  rfl

/-- The first result: the users' means of the projected photo features. -/
theorem W3_v41 (c : Dev nD) : W3 m ρ c (Proc.devRef .tc main_v41)
    = aggUsers (proj (m ((c.tc : Thread nD τ).loc main_arg1)) (m ((c.tc : Thread nD τ).loc main_arg4)) (m ((c.tc : Thread nD τ).loc main_arg5)))
        (m ((c.tc : Thread nD τ).loc main_arg8)) (m ((c.tc : Thread nD τ).loc main_arg9)) := by
  rw [W3_v41_agg, W2_v1, W2_arg8, W2_arg9]

/-- The second result: the photos' means of the projected user features. -/
theorem W3_v21 (c : Dev nD) : W3 m ρ c (Proc.devRef .tc main_v21)
    = aggPhotos (proj (m ((c.tc : Thread nD τ).loc main_arg0)) (m ((c.tc : Thread nD τ).loc main_arg2)) (m ((c.tc : Thread nD τ).loc main_arg3)))
        (m ((c.tc : Thread nD τ).loc main_arg6)) (m ((c.tc : Thread nD τ).loc main_arg7)) := by
  rw [W3_v21_agg, W2_v0, W2_arg6, W2_arg7]

end Cert.KernelIdeal.Results

end
-- ==== Proof.RefValue.lean ====
/-
  The reference, read as the mean aggregation of the projections.

  Each of the reference's two linear layers — the host's contraction of the feature rows with the weights, plus the
  bias laid along every row — is the projection `proj`, entry by entry: the contraction at (p, q) is the sum over k of
  `x (p, k) * w (k, q)` and the broadcast bias reads `b q`. Everything after the layers is the shared aggregation.
-/
import proofs.«174429_j35648228556927_1_alg».proof.Proof.Gen.ReferenceIdeal.Read
import proofs.«174429_j35648228556927_1_alg».proof.Proof.Dense
import proofs.«174429_j35648228556927_1_alg».proof.Proof.Tail

noncomputable section

open scoped BigOperators

namespace Cert.Bridge

open Idealize.ShloMosaic Idealize.ShloMosaic.ValueIdx Cert.Lib.DenseLayer Cert.ReferenceIdeal Cert.ReferenceIdeal.Facts₀ Cert.ReferenceIdeal.Read

/-- The reference's layer on the user features is the projection. -/
theorem ref_proj_users (x0 : FVec Ideal S100000x256 .f32) (x2 : FVec Ideal S256x64 .f32) (x3 : FVec Ideal S64 .f32) :
    (addf (F := Ideal) (Host.dotGeneral (F := Ideal) dot_S100000x256_S256x64_S100000x64_1_0_0_1_n_n none x0 x2) (broadcastInDim S100000x64 ![0, 1] bcast_S1x64_S100000x64_0_1 (broadcastInDim S1x64 ![1] bcast_S64_S1x64_1 x3)))
      = proj x0 x2 x3 := by
  funext i
  obtain ⟨p, q, rfl⟩ : ∃ (p : Fin 100000) (q : Fin 64), i = ix2 p q := ⟨i 0, i 1, eq_ix2 i⟩
  show val_main_v3 (F := Ideal) x0 x2 x3 (ix2 p q) = _
  rw [val_main_v3_apply, val_main_v0_apply, val_main_v2_apply, val_main_v1_apply, proj_apply]
  have el : ∀ k : Fin 256, lidx_main_v0 (ix2 p q) k = ix2 p k := fun k => funext fun a => Fin.ext (by
    match a with | ⟨0, _⟩ => rfl | ⟨1, _⟩ => rfl)
  have er : ∀ k : Fin 256, ridx_main_v0 (ix2 p q) k = ix2 k q := fun k => funext fun a => Fin.ext (by
    match a with | ⟨0, _⟩ => rfl | ⟨1, _⟩ => rfl)
  have eb : idx_main_v1 (idx_main_v2 (ix2 p q)) = ix1 q := funext fun a => Fin.ext (by
    match a with | ⟨0, _⟩ => rfl)
  simp only [el, er, eb]
  rfl

/-- The reference's layer on the photo features is the projection. -/
theorem ref_proj_photos (x1 : FVec Ideal S200000x256 .f32) (x4 : FVec Ideal S256x64 .f32) (x5 : FVec Ideal S64 .f32) :
    (addf (F := Ideal) (Host.dotGeneral (F := Ideal) dot_S200000x256_S256x64_S200000x64_1_0_0_1_n_n none x1 x4) (broadcastInDim S200000x64 ![0, 1] bcast_S1x64_S200000x64_0_1 (broadcastInDim S1x64 ![1] bcast_S64_S1x64_1 x5)))
      = proj x1 x4 x5 := by
  funext i
  obtain ⟨p, q, rfl⟩ : ∃ (p : Fin 200000) (q : Fin 64), i = ix2 p q := ⟨i 0, i 1, eq_ix2 i⟩
  show val_main_v7 (F := Ideal) x1 x4 x5 (ix2 p q) = _
  rw [val_main_v7_apply, val_main_v4_apply, val_main_v6_apply, val_main_v5_apply, proj_apply]
  have el : ∀ k : Fin 256, lidx_main_v4 (ix2 p q) k = ix2 p k := fun k => funext fun a => Fin.ext (by
    match a with | ⟨0, _⟩ => rfl | ⟨1, _⟩ => rfl)
  have er : ∀ k : Fin 256, ridx_main_v4 (ix2 p q) k = ix2 k q := fun k => funext fun a => Fin.ext (by
    match a with | ⟨0, _⟩ => rfl | ⟨1, _⟩ => rfl)
  have eb : idx_main_v5 (idx_main_v6 (ix2 p q)) = ix1 q := funext fun a => Fin.ext (by
    match a with | ⟨0, _⟩ => rfl)
  simp only [el, er, eb]
  rfl

/-- The reference's first result: the users' means of the projected photo features. -/
theorem ref_users (x1 : FVec Ideal S200000x256 .f32) (x4 : FVec Ideal S256x64 .f32) (x5 : FVec Ideal S64 .f32)
    (x8 x9 : IVec S1000000 32) :
    Host.divf (F := Ideal) (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 x9) (Host.gather gather_S200000x64_S1000000x1_S1000000x64_1_0_n_n_0_1_164 (addf (F := Ideal) (Host.dotGeneral (F := Ideal) dot_S200000x256_S256x64_S200000x64_1_0_0_1_n_n none x1 x4) (broadcastInDim S200000x64 ![0, 1] bcast_S1x64_S200000x64_0_1 (broadcastInDim S1x64 ![1] bcast_S64_S1x64_1 x5))) (broadcastInDim S1000000x1 ![0] bcast_S1000000_S1000000x1_0 (select (cmpi .slt x8 (broadcastInDim S1000000 ![] bcast_S_S1000000 (constantI S_ 32 0#32))) (addi x8 (broadcastInDim S1000000 ![] bcast_S_S1000000 (constantI S_ 32 200000#32))) x8)))) (broadcastInDim S100000x64 ![0, 1] bcast_S100000x1_S100000x64_0_1 (broadcastInDim S100000x1 ![0] bcast_S100000_S100000x1_0 (maximumf (F := Ideal) (Host.scatterAdd (F := Ideal) scatter_S100000_S1000000x1_S1000000_n_0_0_1 (broadcastInDim S100000 ![] bcast_S_S100000 (constant (F := Ideal) S_ .f32 0x00000000#32)) (broadcastInDim S1000000x1 ![0] bcast_S1000000_S1000000x1_0 x9) (broadcastInDim S1000000 ![] bcast_S_S1000000 (constant (F := Ideal) S_ .f32 0x3F800000#32))) (broadcastInDim S100000 ![] bcast_S_S100000 (constant (F := Ideal) S_ .f32 0x3F800000#32)))))
      = aggUsers (proj x1 x4 x5) x8 x9 :=
  congrArg (fun wh => aggUsers wh x8 x9) (ref_proj_photos x1 x4 x5)

/-- The reference's second result: the photos' means of the projected user features. -/
theorem ref_photos (x0 : FVec Ideal S100000x256 .f32) (x2 : FVec Ideal S256x64 .f32) (x3 : FVec Ideal S64 .f32)
    (x6 x7 : IVec S1000000 32) :
    Host.divf (F := Ideal) (Host.scatterAdd (F := Ideal) scatter_S200000x64_S1000000x1_S1000000x64_1_0_0_1 (broadcastInDim S200000x64 ![] bcast_S_S200000x64 (constant (F := Ideal) S_ .f32 0x00000000#32)) (broadcastInDim S1000000x1 ![0] bcast_S1000000_S1000000x1_0 x7) (Host.gather gather_S100000x64_S1000000x1_S1000000x64_1_0_n_n_0_1_164 (addf (F := Ideal) (Host.dotGeneral (F := Ideal) dot_S100000x256_S256x64_S100000x64_1_0_0_1_n_n none x0 x2) (broadcastInDim S100000x64 ![0, 1] bcast_S1x64_S100000x64_0_1 (broadcastInDim S1x64 ![1] bcast_S64_S1x64_1 x3))) (broadcastInDim S1000000x1 ![0] bcast_S1000000_S1000000x1_0 (select (cmpi .slt x6 (broadcastInDim S1000000 ![] bcast_S_S1000000 (constantI S_ 32 0#32))) (addi x6 (broadcastInDim S1000000 ![] bcast_S_S1000000 (constantI S_ 32 100000#32))) x6)))) (broadcastInDim S200000x64 ![0, 1] bcast_S200000x1_S200000x64_0_1 (broadcastInDim S200000x1 ![0] bcast_S200000_S200000x1_0 (maximumf (F := Ideal) (Host.scatterAdd (F := Ideal) scatter_S200000_S1000000x1_S1000000_n_0_0_1 (broadcastInDim S200000 ![] bcast_S_S200000 (constant (F := Ideal) S_ .f32 0x00000000#32)) (broadcastInDim S1000000x1 ![0] bcast_S1000000_S1000000x1_0 x7) (broadcastInDim S1000000 ![] bcast_S_S1000000 (constant (F := Ideal) S_ .f32 0x3F800000#32))) (broadcastInDim S200000 ![] bcast_S_S200000 (constant (F := Ideal) S_ .f32 0x3F800000#32)))))
      = aggPhotos (proj x0 x2 x3) x6 x7 :=
  congrArg (fun wh => aggPhotos wh x6 x7) (ref_proj_users x0 x2 x3)

end Cert.Bridge

end
-- ==== Proof.lean ====
/-
  A two-relation graph layer: every user's feature row and every photo's feature row is projected by a linear layer
  (`x · W + b`), and every node then takes the mean of the projected rows of its in-neighbours along the edge lists
  (a node with no incoming edge divides by one).

  The kernel computes the two projections in two tiled calls (blocks of 4000 rows, the product accumulated from zero,
  narrower float formats in between) and the means by host operations; the reference computes the projections by the
  host's contraction and the means by the same host operations. On the extended reals a change of float format is the
  identity and both contractions are the plain sum over the contracted coordinate, so the projected arrays agree entry
  by entry (`Cert.Bridge.proj`), and the aggregation is one shared function of them (`Cert.Bridge.aggUsers`,
  `Cert.Bridge.aggPhotos`), never opened. The equality needs no finiteness: only the definitions of the two sides are
  compared.

  The three frames are the generated ones (the reference's is its run with the results dropped); the idealization
  rewrote no operation of the kernel, so the conjunct relating the kernel to its idealization is `True`.
-/
import proofs.«174429_j35648228556927_1_alg».proof.Defs
import proofs.«174429_j35648228556927_1_alg».proof.Proof.Gen.Kernel
import proofs.«174429_j35648228556927_1_alg».proof.Proof.Gen.Kernel.Skeleton
import proofs.«174429_j35648228556927_1_alg».proof.Proof.Gen.Kernel.Launch
import proofs.«174429_j35648228556927_1_alg».proof.Proof.Gen.Kernel.Points
import proofs.«174429_j35648228556927_1_alg».proof.Proof.Gen.Kernel.Frame
import proofs.«174429_j35648228556927_1_alg».proof.Proof.Gen.KernelIdeal
import proofs.«174429_j35648228556927_1_alg».proof.Proof.Gen.KernelIdeal.Skeleton
import proofs.«174429_j35648228556927_1_alg».proof.Proof.Gen.KernelIdeal.Launch
import proofs.«174429_j35648228556927_1_alg».proof.Proof.Gen.KernelIdeal.Points
import proofs.«174429_j35648228556927_1_alg».proof.Proof.Gen.KernelIdeal.Frame
import proofs.«174429_j35648228556927_1_alg».proof.Proof.Gen.ReferenceIdeal
import proofs.«174429_j35648228556927_1_alg».proof.Proof.Gen.Pre_finite_inputs
import proofs.«174429_j35648228556927_1_alg».proof.Proof.Gen.ReferenceIdeal.Run
import proofs.«174429_j35648228556927_1_alg».proof.Proof.Gen.ReferenceIdeal.Read
import proofs.«174429_j35648228556927_1_alg».proof.Proof.KernelRun
import proofs.«174429_j35648228556927_1_alg».proof.Proof.KernelValue
import proofs.«174429_j35648228556927_1_alg».proof.Proof.RefValue
import Idealize.ShloMosaic.Adequacy
import Idealize.ShloMosaic.Init

noncomputable section

namespace Cert.Proof

open Idealize.ShloMosaic Idealize.SL.Sem Cert.Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the users' result at the mean aggregation of the
    projected photo features and the photos' result at the mean aggregation of the projected user features. -/
theorem algebraic : Cert.algebraic_KernelIdeal_ReferenceIdeal := by
  intro m ρ m' ρ' _ hagree
  refine ⟨fun c => aggUsers (proj (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => aggPhotos (proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Results.W3_v41 m ρ c),
        (h c).2.1.trans (Cert.KernelIdeal.Results.W3_v21 m ρ c), (h c).2.2⟩)
      (Cert.KernelIdeal.Results.run m ρ)
  · refine (θ_run Cert.ReferenceIdeal.defs _ _).mono (fun r h c => ?_) (Cert.ReferenceIdeal.Value.run (F := Ideal) m' ρ')
    obtain ⟨h0, h1, h2, h3, h4, h5, h6, h7, h8, h9⟩ := hagree c
    refine ⟨(h c).1.trans ?_, (h c).2.1.trans ?_, (h c).2.2⟩
    · exact (ref_users _ _ _ _ _).trans (by rw [h1, h4, h5, h8, h9])
    · exact (ref_photos _ _ _ _ _).trans (by rw [h0, h2, h3, h6, h7])

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
